-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S40000x128 .f32) (main_arg1 : IVec S2x640000 32) (main_arg2 : FVec F S640000x128 .f32) (main_arg3 : FVec F S256x128 .f32) (main_arg4 : FVec F S128 .f32) (main_arg5 : FVec F S256x128 .f32) (main_arg6 : FVec F S128 .f32) (main_arg7 : FVec F S128x128 .f32) (main_arg8 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S40000x128 : Shape := ⟨2, ![40000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S8000x128 : Shape := ⟨2, ![8000, 128]⟩
abbrev S5000x128 : Shape := ⟨2, ![5000, 128]⟩

abbrev nBuf : Space → Nat
  | .hbm => 37
  | .vmem => 20
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S40000x128, .bf16⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .bf16⟩
  | .hbm, ⟨23, _⟩ => ⟨S128x128, .f32⟩
  | .hbm, ⟨24, _⟩ => ⟨S128x128, .f32⟩
  | .hbm, ⟨25, _⟩ => ⟨S1x128, .f32⟩
  | .hbm, ⟨26, _⟩ => ⟨S640000x128, .bf16⟩
  | .hbm, ⟨27, _⟩ => ⟨S640000x128, .f32⟩
  | .hbm, ⟨28, _⟩ => ⟨S_, .f32⟩
  | .hbm, ⟨29, _⟩ => ⟨S40000x128, .f32⟩
  | .hbm, ⟨30, _⟩ => ⟨S640000x1, .i32⟩
  | .hbm, ⟨31, _⟩ => ⟨S40000x128, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S1x128, .f32⟩
  | .hbm, ⟨36, _⟩ => ⟨S40000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8000x128, .bf16⟩
  | .local _ .vmem, ⟨8, _⟩ => ⟨S8000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S256x128_S128x128_0_0 : S256x128.Slices ![0, 0] S128x128
  slices_S256x128_S128x128_128_0 : S256x128.Slices ![128, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  packedbf16_S8000x128_S8000x128_0_0 : (Rect.unit (s := S8000x128) ![0, 0] S8000x128.size inb_S8000x128_S8000x128_0_0).PackedRows (EltTy.packing .bf16)
  bcast_S_S40000x128 : S_.BroadcastsInDim S40000x128 (![] : Fin 0 → Fin S40000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S40000x128_S640000x1_S640000x128_1_0_n_n_0_1_1128_wf : GatherDims.WF S40000x128 S640000x1 S640000x128 [1] [0] [] [0] [] 1 ![1, 128]
  dot_S8000x128_S128x128_S8000x128_1_0_0_1_n_n_wf : DotDims.WF S8000x128 S128x128 S8000x128 [1] [0] [0] [1] [] []
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .bf16 = 32 ∨ (Rect.block (s := S640000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S640000x128.size a
  hwx0_5 : ∀ i : grid0.Coords, EltTy.bits .bf16 = 32 ∨ (Rect.block (s := S640000x128) S8000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S40000x128.size a
  hwx1_7 : ∀ i : grid1.Coords, EltTy.bits .f32 = 32 ∨ (Rect.block (s := S40000x128) S5000x128.size (cc1_transform_7 i) (hinb1_7 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x256 : Shape := ⟨2, ![640000, 256]⟩
abbrev S1x128 : Shape := ⟨2, ![1, 128]⟩
abbrev S40000x256 : Shape := ⟨2, ![40000, 256]⟩

abbrev nBuf : Space → Nat
  | .hbm => 59
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S640000x256, .f32⟩
  | .hbm, ⟨23, _⟩ => ⟨S640000x128, .f32⟩
  | .hbm, ⟨24, _⟩ => ⟨S1x128, .f32⟩
  | .hbm, ⟨25, _⟩ => ⟨S640000x128, .f32⟩
  | .hbm, ⟨26, _⟩ => ⟨S640000x128, .f32⟩
  | .hbm, ⟨27, _⟩ => ⟨S640000x128, .f32⟩
  | .hbm, ⟨28, _⟩ => ⟨S640000x128, .f32⟩
  | .hbm, ⟨29, _⟩ => ⟨S_, .f32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S40000x128, .f32⟩
  | .hbm, ⟨38, _⟩ => ⟨S640000x1, .i32⟩
  | .hbm, ⟨39, _⟩ => ⟨S40000x128, .f32⟩
  | .hbm, ⟨40, _⟩ => ⟨S40000x256, .f32⟩
  | .hbm, ⟨41, _⟩ => ⟨S40000x128, .f32⟩
  | .hbm, ⟨42, _⟩ => ⟨S1x128, .f32⟩
  | .hbm, ⟨43, _⟩ => ⟨S40000x128, .f32⟩
  | .hbm, ⟨44, _⟩ => ⟨S40000x128, .f32⟩
  | .hbm, ⟨45, _⟩ => ⟨S40000x128, .f32⟩
  | .hbm, ⟨46, _⟩ => ⟨S40000x128, .f32⟩
  | .hbm, ⟨47, _⟩ => ⟨S_, .f32⟩
  | .hbm, ⟨48, _⟩ => ⟨S40000x128, .f32⟩
  | .hbm, ⟨49, _⟩ => ⟨S40000x128, .f32⟩
  | .hbm, ⟨50, _⟩ => ⟨S_, .f32⟩
  | .hbm, ⟨51, _⟩ => ⟨S40000x128, .f32⟩
  | .hbm, ⟨52, _⟩ => ⟨S40000x128, .f32⟩
  | .hbm, ⟨53, _⟩ => ⟨S40000x128, .f32⟩
  | .hbm, ⟨54, _⟩ => ⟨S40000x128, .f32⟩
  | .hbm, ⟨55, _⟩ => ⟨S1x128, .f32⟩
  | .hbm, ⟨56, _⟩ => ⟨S40000x128, .f32⟩
  | .hbm, ⟨57, _⟩ => ⟨S40000x128, .f32⟩
  | .hbm, ⟨58, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  concatenates_S40000x128_S40000x128_S40000x256_d1 : Shape.Concatenates [S40000x128, S40000x128] S40000x256 1
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x256_S256x128_S640000x128_1_0_0_1_n_n_wf : DotDims.WF S640000x256 S256x128 S640000x128 [1] [0] [0] [1] [] []
  scatter_S40000x128_S640000x1_S640000x128_1_0_0_1_wf : ScatterDims.WF S40000x128 S640000x1 S640000x128 [1] [0] [0] 1
  dot_S40000x256_S256x128_S40000x128_1_0_0_1_n_n_wf : DotDims.WF S40000x256 S256x128 S40000x128 [1] [0] [0] [1] [] []
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«148401_j13073880449416_2_alg».proof.Proof.LibDotIdx
import proofs.«148401_j13073880449416_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.LibTwoBlock.lean ====
/-
  A dense layer whose input row is two blocks laid side by side, on the exact extended reals.

  Row `r` of the layer's pre-activation is `[x_r | y_r] · W + b`, with `W` of `2·128` rows. Written with the input
  joined first and ONE product against `W`, entry `j` is `∑_{c < 256} [x_r | y_r]_c · W_{c j} + b_j`; written with `W`
  cut into its upper and lower halves and TWO products, it is `(∑_{c < 128} x_{r c} · W_{c j} + ∑_{c < 128} y_{r c} · W_{128 + c, j}) + b_j`.
  The two are the same number: a finite sum over `128 + 128` terms is the sum of its first `128` terms plus the sum of
  its last `128`, which uses only that addition is associative and commutative, so it holds at the infinities as well.
  The activation is `x · σ(x)` with `σ` the logistic function.
-/
import Idealize.ShloMosaic.Lib.ValueIdx
import Idealize.ShloMosaic.Lib.ValueLayout
import Idealize.ShloMosaic.Lib.Pipeline.Value
import Idealize.ShloMosaic.PureOps.Ideal.Laws
import proofs.«148401_j13073880449416_2_alg».proof.Proof.LibDotIdx
import proofs.«148401_j13073880449416_2_alg».proof.Proof.LibRowOps

noncomputable section

namespace Cert.TwoBlock

open Idealize.ShloMosaic Idealize.ShloMosaic.ValueIdx

/-- `x · σ(x)`, the logistic function `σ(x) = 1 / (1 + e⁻ˣ)` with its limits `0` and `1` at the infinities. -/
def silu (x : EReal) : EReal := x * Ideal.logistic x

/-- The pre-activation at row `r`, column `j`, with the weight matrix given as its two halves. -/
def pre {R : ℕ} (X Y : (⟨2, ![R, 128]⟩ : Shape).Idx → EReal) (Wa Wb : (⟨2, ![128, 128]⟩ : Shape).Idx → EReal)
    (b : Fin 128 → EReal) (r : Fin R) (j : Fin 128) : EReal :=
  (∑ c : Fin 128, X (ix2 r c) * Wa (ix2 c j) + ∑ c : Fin 128, Y (ix2 r c) * Wb (ix2 c j)) + b j

/-- The output layer at row `r`, column `j`: the residual plus one more dense layer on the hidden row. -/
def postact {R : ℕ} (N H : (⟨2, ![R, 128]⟩ : Shape).Idx → EReal) (W : (⟨2, ![128, 128]⟩ : Shape).Idx → EReal)
    (b : Fin 128 → EReal) (r : Fin R) (j : Fin 128) : EReal :=
  N (ix2 r j) + (∑ c : Fin 128, H (ix2 r c) * W (ix2 c j) + b j)

/-- A sum over `128 + 128` terms is the sum of the first `128` plus the sum of the last `128`. -/
theorem sum_256 (f : Fin 256 → EReal) :
    ∑ c : Fin 256, f c = ∑ c : Fin 128, f ⟨c.val, by omega⟩ + ∑ c : Fin 128, f ⟨128 + c.val, by omega⟩ := by
  have h := Fin.sum_univ_add (M := EReal) (a := 128) (b := 128) f
  exact h

/-- The pre-activation at a row depends only on that row of the two inputs, on one column of each weight half and on one
    bias entry. -/
theorem pre_congr {R R' : ℕ} (X Y : (⟨2, ![R, 128]⟩ : Shape).Idx → EReal) (X' Y' : (⟨2, ![R', 128]⟩ : Shape).Idx → EReal)
    (Wa Wb Wa' Wb' : (⟨2, ![128, 128]⟩ : Shape).Idx → EReal) (b b' : Fin 128 → EReal)
    (r : Fin R) (r' : Fin R') (j j' : Fin 128)
    (hX : ∀ c : Fin 128, X (ix2 r c) = X' (ix2 r' c)) (hY : ∀ c : Fin 128, Y (ix2 r c) = Y' (ix2 r' c))
    (hWa : ∀ c : Fin 128, Wa (ix2 c j) = Wa' (ix2 c j')) (hWb : ∀ c : Fin 128, Wb (ix2 c j) = Wb' (ix2 c j'))
    (hb : b j = b' j') :
    pre X Y Wa Wb b r j = pre X' Y' Wa' Wb' b' r' j' := by
  unfold pre
  rw [hb, Finset.sum_congr rfl fun c _ => congrArg₂ (· * ·) (hX c) (hWa c),
    Finset.sum_congr rfl fun c _ => congrArg₂ (· * ·) (hY c) (hWb c)]

/-- The output layer at a row depends only on that row of the node features and of the hidden layer, on one column of the
    weights and on one bias entry. -/
theorem postact_congr {R R' : ℕ} (N H : (⟨2, ![R, 128]⟩ : Shape).Idx → EReal) (N' H' : (⟨2, ![R', 128]⟩ : Shape).Idx → EReal)
    (W W' : (⟨2, ![128, 128]⟩ : Shape).Idx → EReal) (b b' : Fin 128 → EReal)
    (r : Fin R) (r' : Fin R') (j j' : Fin 128)
    (hN : N (ix2 r j) = N' (ix2 r' j')) (hH : ∀ c : Fin 128, H (ix2 r c) = H' (ix2 r' c))
    (hW : ∀ c : Fin 128, W (ix2 c j) = W' (ix2 c j')) (hb : b j = b' j') :
    postact N H W b r j = postact N' H' W' b' r' j' := by
  unfold postact
  rw [hb, hN, Finset.sum_congr rfl fun c _ => congrArg₂ (· * ·) (hH c) (hW c)]

end Cert.TwoBlock

end
-- ==== Proof.MsgValue.lean ====
/-
  The first pipelined region: the message layer over blocks of 8000 edges.

  Grid point `t` of 80 loads rows `8000 t … 8000 t + 7999` of the gathered source features `X` and of the edge features
  `E`, the two halves `Wa`, `Wb` of the weight matrix and the bias row `b` whole, and stores
  `silu ((X_r · Wa + E_r · Wb) + b)` for each of its rows `r`. An entry of a block depends only on its own row of `X`
  and `E`, so block `t` of the result is block `t` of ONE function of the whole arrays, and the 80 blocks cover the
  640000 rows: the array the region leaves is that function.
-/
import proofs.«148401_j13073880449416_2_alg».proof.Proof.Gen.KernelIdeal.Frame
import proofs.«148401_j13073880449416_2_alg».proof.Proof.LibTwoBlock

set_option maxRecDepth 16384

noncomputable section

namespace Cert.KernelIdeal.MsgValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.TwoBlock

/-- The message array as one function of the region's five operand arrays. -/
def msgs (X E : S640000x128.Idx → EReal) (Wa Wb : S128x128.Idx → EReal) (b : S1x128.Idx → EReal) :
    S640000x128.Idx → EReal :=
  fun i => silu (pre X E Wa Wb (fun j => b (ix2 (0 : Fin 1) j)) ⟨(i 0).val, idx2_lt0 i⟩ ⟨(i 1).val, idx2_lt1 i⟩)

/-- What the body stores, read at row `p`, column `q` of its block. -/
theorem pay_apply (x0 : FVec Ideal S8000x128 .bf16) (x1 : FVec Ideal S8000x128 .f32) (x2 x3 : FVec Ideal S128x128 .f32)
    (x4 : FVec Ideal S1x128 .f32) (p : Fin 8000) (q : Fin 128) :
    k0_pay1 (F := Ideal) x0 x1 x2 x3 x4 (ix2 p q) = silu (pre x0 x1 x2 x3 (fun j => x4 (ix2 (0 : Fin 1) j)) p q) := by
  unfold k0_pay1
  simp only [shapeCast_self]
  show silu ((matmul dot_S8000x128_S128x128_S8000x128_1_0_0_1_n_n none x0 (truncf .bf16 x2 bitsLt_bf16_f32) (constant S8000x128 .f32 0x00000000#32) (ix2 p q)
      + matmul dot_S8000x128_S128x128_S8000x128_1_0_0_1_n_n none (truncf .bf16 x1 bitsLt_bf16_f32) (truncf .bf16 x3 bitsLt_bf16_f32) (constant S8000x128 .f32 0x00000000#32) (ix2 p q))
      + broadcastTo S8000x128 x4 broadcasts_S1x128_S8000x128 (ix2 p q)) = _
  unfold pre
  refine congrArg silu (congrArg₂ (· + ·) (congrArg₂ (· + ·) ?_ ?_) ?_)
  · exact DotIdx.matmul_plain_zero_apply _ none x0 (truncf .bf16 x2 bitsLt_bf16_f32) p q
  · exact DotIdx.matmul_plain_zero_apply _ none (truncf .bf16 x1 bitsLt_bf16_f32) (truncf .bf16 x3 bitsLt_bf16_f32) p q
  · exact broadcastTo_1b_ab_apply x4 broadcasts_S1x128_S8000x128 p q

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the two row-blocked inputs and the output sit at block row `t`, the weights and
    the bias at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 80 := Nat.lt_of_lt_of_eq t.isLt N_0

/-- Row `p` of block `t` of a row-blocked array is row `8000 t + p`. -/
def row (t : Fin cfg0.N) (p : Fin 8000) : Fin 640000 := ⟨t.val * 8000 + p.val, by have := point_lt t; omega⟩

theorem read_src (c : Dev nD) (t : Fin cfg0.N) (p : Fin 8000) (k : Fin 128) :
    iblk0 V c 0 t (ix2 p k) = V c main_v11 (ix2 (row t p) k) := by
  obtain ⟨e0, e1, -⟩ := idx_facts t
  show V c main_v11 (((cfg0.win 0).blk t).view.emb (ix2 p k)) = _
  have h : ((cfg0.win 0).blk t).view.emb (ix2 p k) = ix2 (row t p) k := by
    funext a; apply Fin.ext
    match a with
    | ⟨0, _⟩ => show win0_0.index t (0 : Fin 2) * 8000 + 1 * p.val = t.val * 8000 + p.val; omega
    | ⟨1, _⟩ => show win0_0.index t (1 : Fin 2) * 128 + 1 * k.val = k.val; omega
  rw [h]

theorem read_edge (c : Dev nD) (t : Fin cfg0.N) (p : Fin 8000) (k : Fin 128) :
    iblk0 V c 1 t (ix2 p k) = V c main_arg2 (ix2 (row t p) k) := by
  obtain ⟨-, -, e0, e1, -⟩ := idx_facts t
  show V c main_arg2 (((cfg0.win 1).blk t).view.emb (ix2 p k)) = _
  have h : ((cfg0.win 1).blk t).view.emb (ix2 p k) = ix2 (row t p) k := by
    funext a; apply Fin.ext
    match a with
    | ⟨0, _⟩ => show win0_1.index t (0 : Fin 2) * 8000 + 1 * p.val = t.val * 8000 + p.val; omega
    | ⟨1, _⟩ => show win0_1.index t (1 : Fin 2) * 128 + 1 * k.val = k.val; omega
  rw [h]

theorem read_wa (c : Dev nD) (t : Fin cfg0.N) (k q : Fin 128) :
    iblk0 V c 2 t (ix2 k q) = V c main_v12 (ix2 k q) := by
  obtain ⟨-, -, -, -, e0, e1, -⟩ := idx_facts t
  show V c main_v12 (((cfg0.win 2).blk t).view.emb (ix2 k q)) = _
  have h : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  rw [h]

theorem read_wb (c : Dev nD) (t : Fin cfg0.N) (k q : Fin 128) :
    iblk0 V c 3 t (ix2 k q) = V c main_v13 (ix2 k q) := by
  obtain ⟨-, -, -, -, -, -, e0, e1, -⟩ := idx_facts t
  show V c main_v13 (((cfg0.win 3).blk t).view.emb (ix2 k q)) = _
  have h : ((cfg0.win 3).blk t).view.emb (ix2 k q) = ix2 k q := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  rw [h]

theorem read_bias (c : Dev nD) (t : Fin cfg0.N) (q : Fin 128) :
    iblk0 V c 4 t (ix2 (0 : Fin 1) q) = V c main_v14 (ix2 (0 : Fin 1) q) := by
  obtain ⟨-, -, -, -, -, -, -, -, e0, e1, -⟩ := idx_facts t
  show V c main_v14 (((cfg0.win 4).blk t).view.emb (ix2 (0 : Fin 1) q)) = _
  have h : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 128 + 1 * q.val = q.val; omega
  rw [h]

/-- What point `t` writes back is block `t` of the message array. -/
theorem flushed_eq (c : Dev nD) (t : Fin cfg0.N) :
    (dat0 V c).flushed 5 t = ((cfg0.win 5).blk t).view.read (Elt Ideal)
      (msgs (V c main_v11) (V c main_arg2) (V c main_v12) (V c main_v13) (V c main_v14)) := by
  show (cfg0.win 5).cut (grid0.coords t) ((dat0 V c).after 5 t) = _
  rw [after0_5]
  unfold out0_5
  rw [View.canon_unit_zero zero_offsets]
  simp only [View.ld_unit_zero (S := S8000x128) zero_offsets, View.ld_unit_zero (S := S128x128) zero_offsets,
    View.ld_unit_zero (S := S1x128) zero_offsets]
  obtain ⟨-, -, -, -, -, -, -, -, -, -, e0, e1⟩ := idx_facts t
  funext j
  obtain ⟨p, q, rfl⟩ : ∃ (p : Fin 8000) (q : Fin 128), j = ix2 p q := ⟨j 0, j 1, eq_ix2 j⟩
  have hout : ((cfg0.win 5).blk t).view.emb (ix2 p q) = ix2 (row t p) q := by
    funext a; apply Fin.ext
    match a with
    | ⟨0, _⟩ => show win0_5.index t (0 : Fin 2) * 8000 + 1 * p.val = t.val * 8000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
    = msgs (V c main_v11) (V c main_arg2) (V c main_v12) (V c main_v13) (V c main_v14) (((cfg0.win 5).blk t).view.emb (ix2 p q))
  rw [hout]
  refine (pay_apply (iblk0 V c 0 t) (iblk0 V c 1 t) (iblk0 V c 2 t) (iblk0 V c 3 t) (iblk0 V c 4 t) p q).trans ?_
  show silu _ = silu (pre (V c main_v11) (V c main_arg2) (V c main_v12) (V c main_v13) (fun j => V c main_v14 (ix2 (0 : Fin 1) j)) (row t p) q)
  exact congrArg silu (pre_congr _ _ _ _ _ _ _ _ _ _ p (row t p) q q (read_src V c t p) (read_edge V c t p)
    (fun k => read_wa V c t k q) (fun k => read_wb V c t k q) (read_bias V c t q))

/-- An index of the array is in point `t`'s block iff each coordinate is in the block's range on its axis. -/
theorem mem_blk (t : Fin cfg0.N) (i : S640000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v15).slice (win0_5.rect t)).set ↔ _
  rw [View.set_slice_whole, Rect.mem_set_unit]
  exact Iff.rfl

/-- Row `r` lies in the block of point `r / 8000`: the 80 blocks cover the array. -/
theorem cover (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  have hN : cfg0.N = 80 := N_0
  obtain ⟨t, ht⟩ : ∃ t : Fin cfg0.N, t.val = (i 0).val / 8000 := ⟨⟨(i 0).val / 8000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 128 ≤ (i 1).val ∧ (i 1).val < win0_5.index t (1 : Fin 2) * 128 + 128; omega

/-- The array the region leaves: the message array of the operand arrays as the region finds them. -/
theorem final (c : Dev nD) :
    (dat0 V c).arrAt 5 cfg0.N = msgs (V c main_v11) (V c main_arg2) (V c main_v12) (V c main_v13) (V c main_v14) :=
  (dat0 V c).arrAt_eq_of_cover 5 _ (fun t _ => flushed_eq V c t) cover

end Cert.KernelIdeal.MsgValue

end
-- ==== Proof.UpdValue.lean ====
/-
  The second pipelined region: the update layer over blocks of 5000 nodes.

  Grid point `t` of 8 loads rows `5000 t … 5000 t + 4999` of the node features `N` and of the aggregated messages `A`,
  the two halves `Ua`, `Ub` of the first weight matrix, the second weight matrix `W` and the two bias rows whole, and
  stores `N_r + (silu ((N_r · Ua + A_r · Ub) + b₁) · W + b₂)` for each of its rows `r`. An entry of a block depends only
  on its own row of `N` and `A`, so block `t` of the result is block `t` of ONE function of the whole arrays, and the
  8 blocks cover the 40000 rows: the array the region leaves is that function.
-/
import proofs.«148401_j13073880449416_2_alg».proof.Proof.Gen.KernelIdeal.Frame
import proofs.«148401_j13073880449416_2_alg».proof.Proof.LibTwoBlock

set_option maxRecDepth 16384

noncomputable section

namespace Cert.KernelIdeal.UpdValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.TwoBlock

/-- The hidden layer of a block or of the whole array: `silu` of the two-block pre-activation, row by row. -/
def hidden {R : ℕ} (N A : (⟨2, ![R, 128]⟩ : Shape).Idx → EReal) (Ua Ub : S128x128.Idx → EReal) (b1 : S1x128.Idx → EReal) :
    (⟨2, ![R, 128]⟩ : Shape).Idx → EReal :=
  fun i => silu (pre N A Ua Ub (fun j => b1 (ix2 (0 : Fin 1) j)) ⟨(i 0).val, idx2_lt0 i⟩ ⟨(i 1).val, idx2_lt1 i⟩)

/-- The updated node features as one function of the region's seven operand arrays. -/
def updated (N A : S40000x128.Idx → EReal) (Ua Ub : S128x128.Idx → EReal) (b1 : S1x128.Idx → EReal)
    (W : S128x128.Idx → EReal) (b2 : S1x128.Idx → EReal) : S40000x128.Idx → EReal :=
  fun i => postact N (hidden N A Ua Ub b1) W (fun j => b2 (ix2 (0 : Fin 1) j)) ⟨(i 0).val, idx2_lt0 i⟩ ⟨(i 1).val, idx2_lt1 i⟩

/-- What the body stores, read at row `p`, column `q` of its block. -/
theorem pay_apply (x0 x1 : FVec Ideal S5000x128 .f32) (x2 x3 : FVec Ideal S128x128 .f32) (x4 : FVec Ideal S1x128 .f32)
    (x5 : FVec Ideal S128x128 .f32) (x6 : FVec Ideal S1x128 .f32) (p : Fin 5000) (q : Fin 128) :
    k1_pay1 (F := Ideal) x0 x1 x2 x3 x4 x5 x6 (ix2 p q)
      = postact x0 (hidden x0 x1 x2 x3 x4) x5 (fun j => x6 (ix2 (0 : Fin 1) j)) p q := by
  have hh : ∀ (r : Fin 5000) (k : Fin 128),
      (addf (addf (matmul dot_S5000x128_S128x128_S5000x128_1_0_0_1_n_n none (truncf .bf16 x0 bitsLt_bf16_f32) (truncf .bf16 x2 bitsLt_bf16_f32) (constant S5000x128 .f32 0x00000000#32))
          (matmul dot_S5000x128_S128x128_S5000x128_1_0_0_1_n_n none (truncf .bf16 x1 bitsLt_bf16_f32) (truncf .bf16 x3 bitsLt_bf16_f32) (constant S5000x128 .f32 0x00000000#32)))
        (broadcastTo S5000x128 x4 broadcasts_S1x128_S5000x128)) (ix2 r k)
      = pre x0 x1 x2 x3 (fun j => x4 (ix2 (0 : Fin 1) j)) r k := by
    intro r k
    unfold pre
    refine congrArg₂ (· + ·) (congrArg₂ (· + ·) ?_ ?_) ?_
    · exact DotIdx.matmul_plain_zero_apply _ none (truncf .bf16 x0 bitsLt_bf16_f32) (truncf .bf16 x2 bitsLt_bf16_f32) r k
    · exact DotIdx.matmul_plain_zero_apply _ none (truncf .bf16 x1 bitsLt_bf16_f32) (truncf .bf16 x3 bitsLt_bf16_f32) r k
    · exact broadcastTo_1b_ab_apply x4 broadcasts_S1x128_S5000x128 r k
  unfold k1_pay1
  simp only [shapeCast_self]
  -- the hidden block, as the body spells it
  generalize hpre : addf (addf (matmul dot_S5000x128_S128x128_S5000x128_1_0_0_1_n_n none (truncf .bf16 x0 bitsLt_bf16_f32) (truncf .bf16 x2 bitsLt_bf16_f32) (constant S5000x128 .f32 0x00000000#32))
          (matmul dot_S5000x128_S128x128_S5000x128_1_0_0_1_n_n none (truncf .bf16 x1 bitsLt_bf16_f32) (truncf .bf16 x3 bitsLt_bf16_f32) (constant S5000x128 .f32 0x00000000#32)))
        (broadcastTo S5000x128 x4 broadcasts_S1x128_S5000x128) = z at hh
  show x0 (ix2 p q) + (matmul dot_S5000x128_S128x128_S5000x128_1_0_0_1_n_n none (truncf .bf16 (mulf z (logistic z)) bitsLt_bf16_f32) (truncf .bf16 x5 bitsLt_bf16_f32) (constant S5000x128 .f32 0x00000000#32) (ix2 p q)
      + broadcastTo S5000x128 x6 broadcasts_S1x128_S5000x128 (ix2 p q)) = _
  unfold postact
  refine congrArg (x0 (ix2 p q) + ·) (congrArg₂ (· + ·) ?_ ?_)
  · refine (DotIdx.matmul_plain_zero_apply _ none (truncf .bf16 (mulf z (logistic z)) bitsLt_bf16_f32) (truncf .bf16 x5 bitsLt_bf16_f32) p q).trans ?_
    refine Finset.sum_congr rfl fun k _ => congrArg (· * x5 (ix2 k q)) ?_
    show silu (z (ix2 p k)) = silu (pre x0 x1 x2 x3 (fun j => x4 (ix2 (0 : Fin 1) j)) p k)
    rw [hh p k]
  · exact broadcastTo_1b_ab_apply x6 broadcasts_S1x128_S5000x128 p q

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the two row-blocked inputs and the output sit at block row `t`, the weights and
    the biases at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem point_lt (t : Fin cfg1.N) : t.val < 8 := Nat.lt_of_lt_of_eq t.isLt N_1

/-- Row `p` of block `t` of a row-blocked array is row `5000 t + p`. -/
def row (t : Fin cfg1.N) (p : Fin 5000) : Fin 40000 := ⟨t.val * 5000 + p.val, by have := point_lt t; omega⟩

theorem read_nodes (c : Dev nD) (t : Fin cfg1.N) (p : Fin 5000) (k : Fin 128) :
    iblk1 V c 0 t (ix2 p k) = V c main_arg0 (ix2 (row t p) k) := by
  have e := idx_facts t
  show V c main_arg0 (((cfg1.win 0).blk t).view.emb (ix2 p k)) = _
  have h : ((cfg1.win 0).blk t).view.emb (ix2 p k) = ix2 (row t p) k := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  rw [h]

theorem read_agg (c : Dev nD) (t : Fin cfg1.N) (p : Fin 5000) (k : Fin 128) :
    iblk1 V c 1 t (ix2 p k) = V c main_v19 (ix2 (row t p) k) := by
  have e := idx_facts t
  show V c main_v19 (((cfg1.win 1).blk t).view.emb (ix2 p k)) = _
  have h : ((cfg1.win 1).blk t).view.emb (ix2 p k) = ix2 (row t p) k := by
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  rw [h]

theorem read_ua (c : Dev nD) (t : Fin cfg1.N) (k q : Fin 128) :
    iblk1 V c 2 t (ix2 k q) = V c main_v20 (ix2 k q) := by
  have e := idx_facts t
  show V c main_v20 (((cfg1.win 2).blk t).view.emb (ix2 k q)) = _
  have h : ((cfg1.win 2).blk t).view.emb (ix2 k q) = ix2 k q := by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  rw [h]

theorem read_ub (c : Dev nD) (t : Fin cfg1.N) (k q : Fin 128) :
    iblk1 V c 3 t (ix2 k q) = V c main_v21 (ix2 k q) := by
  have e := idx_facts t
  show V c main_v21 (((cfg1.win 3).blk t).view.emb (ix2 k q)) = _
  have h : ((cfg1.win 3).blk t).view.emb (ix2 k q) = ix2 k q := by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  rw [h]

theorem read_b1 (c : Dev nD) (t : Fin cfg1.N) (q : Fin 128) :
    iblk1 V c 4 t (ix2 (0 : Fin 1) q) = V c main_v22 (ix2 (0 : Fin 1) q) := by
  have e := idx_facts t
  show V c main_v22 (((cfg1.win 4).blk t).view.emb (ix2 (0 : Fin 1) q)) = _
  have h : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  rw [h]

theorem read_w (c : Dev nD) (t : Fin cfg1.N) (k q : Fin 128) :
    iblk1 V c 5 t (ix2 k q) = V c main_arg7 (ix2 k q) := by
  have e := idx_facts t
  show V c main_arg7 (((cfg1.win 5).blk t).view.emb (ix2 k q)) = _
  have h : ((cfg1.win 5).blk t).view.emb (ix2 k q) = ix2 k q := by
    funext a; apply Fin.ext
    match a with
    | ⟨0, _⟩ => show win1_5.index t (0 : Fin 2) * 128 + 1 * k.val = k.val; omega
    | ⟨1, _⟩ => show win1_5.index t (1 : Fin 2) * 128 + 1 * q.val = q.val; omega
  rw [h]

theorem read_b2 (c : Dev nD) (t : Fin cfg1.N) (q : Fin 128) :
    iblk1 V c 6 t (ix2 (0 : Fin 1) q) = V c main_v23 (ix2 (0 : Fin 1) q) := by
  have e := idx_facts t
  show V c main_v23 (((cfg1.win 6).blk t).view.emb (ix2 (0 : Fin 1) q)) = _
  have h : ((cfg1.win 6).blk t).view.emb (ix2 (0 : Fin 1) q) = ix2 (0 : Fin 1) q := by
    funext a; apply Fin.ext
    match a with
    | ⟨0, _⟩ => show win1_6.index t (0 : Fin 2) * 1 + 1 * 0 = 0; omega
    | ⟨1, _⟩ => show win1_6.index t (1 : Fin 2) * 128 + 1 * q.val = q.val; omega
  rw [h]

/-- What point `t` writes back is block `t` of the updated array. -/
theorem flushed_eq (c : Dev nD) (t : Fin cfg1.N) :
    (dat1 V c).flushed 7 t = ((cfg1.win 7).blk t).view.read (Elt Ideal)
      (updated (V c main_arg0) (V c main_v19) (V c main_v20) (V c main_v21) (V c main_v22) (V c main_arg7) (V c main_v23)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  have e := idx_facts t
  funext j
  obtain ⟨p, q, rfl⟩ : ∃ (p : Fin 5000) (q : Fin 128), j = ix2 p q := ⟨j 0, j 1, eq_ix2 j⟩
  have hout : ((cfg1.win 7).blk t).view.emb (ix2 p q) = ix2 (row t p) q := by
    funext a; apply Fin.ext
    match a with
    | ⟨0, _⟩ => show win1_7.index t (0 : Fin 2) * 5000 + 1 * p.val = t.val * 5000 + p.val; omega
    | ⟨1, _⟩ => show win1_7.index t (1 : Fin 2) * 128 + 1 * q.val = q.val; omega
  show k1_pay1 (iblk1 V c 0 t) (iblk1 V c 1 t) (iblk1 V c 2 t) (iblk1 V c 3 t) (iblk1 V c 4 t) (iblk1 V c 5 t) (iblk1 V c 6 t) (ix2 p q)
    = updated (V c main_arg0) (V c main_v19) (V c main_v20) (V c main_v21) (V c main_v22) (V c main_arg7) (V c main_v23)
        (((cfg1.win 7).blk t).view.emb (ix2 p q))
  rw [hout]
  refine (pay_apply (iblk1 V c 0 t) (iblk1 V c 1 t) (iblk1 V c 2 t) (iblk1 V c 3 t) (iblk1 V c 4 t) (iblk1 V c 5 t) (iblk1 V c 6 t) p q).trans ?_
  show _ = postact (V c main_arg0) (hidden (V c main_arg0) (V c main_v19) (V c main_v20) (V c main_v21) (V c main_v22)) (V c main_arg7)
    (fun j => V c main_v23 (ix2 (0 : Fin 1) j)) (row t p) q
  refine postact_congr _ _ _ _ _ _ _ _ p (row t p) q q (read_nodes V c t p q) (fun k => ?_) (fun k => read_w V c t k q) (read_b2 V c t q)
  show silu (pre (iblk1 V c 0 t) (iblk1 V c 1 t) (iblk1 V c 2 t) (iblk1 V c 3 t) (fun j => iblk1 V c 4 t (ix2 (0 : Fin 1) j)) p k)
    = silu (pre (V c main_arg0) (V c main_v19) (V c main_v20) (V c main_v21) (fun j => V c main_v22 (ix2 (0 : Fin 1) j)) (row t p) k)
  exact congrArg silu (pre_congr _ _ _ _ _ _ _ _ _ _ p (row t p) k k (read_nodes V c t p) (read_agg V c t p)
    (fun l => read_ua V c t l k) (fun l => read_ub V c t l k) (read_b1 V c t k))

/-- An index of the array is in point `t`'s block iff each coordinate is in the block's range on its axis. -/
theorem mem_blk (t : Fin cfg1.N) (i : S40000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v24).slice (win1_7.rect t)).set ↔ _
  rw [View.set_slice_whole, Rect.mem_set_unit]
  exact Iff.rfl

/-- Row `r` lies in the block of point `r / 5000`: the 8 blocks cover the array. -/
theorem cover (i : S40000x128.Idx) :
    ∃ t : Fin cfg1.N, (cfg1.win 7).flush t = true ∧ i ∈ ((cfg1.win 7).blk t).view.set := by
  have hi0 : (i 0).val < 40000 := (i 0).isLt
  have hi1 : (i 1).val < 128 := (i 1).isLt
  have hN : cfg1.N = 8 := N_1
  obtain ⟨t, ht⟩ : ∃ t : Fin cfg1.N, t.val = (i 0).val / 5000 := ⟨⟨(i 0).val / 5000, by rw [hN]; omega⟩, rfl⟩
  have e := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The array the region leaves: the updated node features of the operand arrays as the region finds them. -/
theorem final (c : Dev nD) :
    (dat1 V c).arrAt 7 cfg1.N
      = updated (V c main_arg0) (V c main_v19) (V c main_v20) (V c main_v21) (V c main_v22) (V c main_arg7) (V c main_v23) :=
  (dat1 V c).arrAt_eq_of_cover 7 _ (fun t _ => flushed_eq V c t) cover

end Cert.KernelIdeal.UpdValue

end
-- ==== Proof.KernelHost.lean ====
/-
  The kernel program's host operations around its two regions, read back to the arguments.

  Before the first region the host cuts the two rows of the edge list apart, wraps negative source indices once by
  the node count, gathers the source rows from the node features, and cuts the first weight matrix into its upper and
  lower halves; between the regions it scatter-adds the messages to their destination rows, starting from zeros, and
  cuts the second layer's first weight matrix the same way. Composing these with what the two regions leave gives the
  program's result as ONE function of the nine arguments.
-/
import Idealize.ShloMosaic.PureOps.Ideal
import proofs.«148401_j13073880449416_2_alg».proof.Proof.Gen.KernelIdeal.Frame
import proofs.«148401_j13073880449416_2_alg».proof.Proof.MsgValue
import proofs.«148401_j13073880449416_2_alg».proof.Proof.UpdValue

set_option maxRecDepth 16384

noncomputable section

namespace Cert.KernelIdeal.HostValue

open Cert.KernelIdeal Cert.KernelIdeal.Gen
open Idealize.ShloMosaic Idealize.ShloMosaic.TcCoe Idealize.ShloMosaic.StableHlo Idealize.SL.Sem

/-- Row `k` of the edge list as a vector of 640000 words: row 0 the sources, row 1 the destinations. -/
def srcRow (a1 : IVec S2x640000 32) : IVec S640000 32 :=
  shapeCast S640000 (extractStridedSlice S1x640000 ![0, 0] a1 slices_S2x640000_S1x640000_0_0) shapeCasts_S1x640000_S640000
def dstRow (a1 : IVec S2x640000 32) : IVec S640000 32 :=
  shapeCast S640000 (extractStridedSlice S1x640000 ![1, 0] a1 slices_S2x640000_S1x640000_1_0) shapeCasts_S1x640000_S640000

/-- The gather's start indices: a negative source index moved up by the node count, as one column. -/
def srcIdx (a1 : IVec S2x640000 32) : IVec S640000x1 32 :=
  broadcastInDim S640000x1 ![0] bcast_S640000_S640000x1_0
    (select (cmpi .slt (srcRow a1) (broadcastInDim S640000 ![] bcast_S_S640000 (constantI S_ 32 0#32)))
      (addi (srcRow a1) (broadcastInDim S640000 ![] bcast_S_S640000 (constantI S_ 32 40000#32))) (srcRow a1))

/-- The scatter's indices: the destinations as one column. -/
def dstIdx (a1 : IVec S2x640000 32) : IVec S640000x1 32 :=
  broadcastInDim S640000x1 ![0] bcast_S640000_S640000x1_0 (dstRow a1)

/-- The source rows of the node features, one per edge. -/
def gathered (a0 : FVec Ideal S40000x128 .f32) (a1 : IVec S2x640000 32) : FVec Ideal S640000x128 .bf16 :=
  Host.gather gather_S40000x128_S640000x1_S640000x128_1_0_n_n_0_1_1128 (truncf .bf16 a0 bitsLt_bf16_f32) (srcIdx a1)

/-- The upper and the lower half of a weight matrix of 256 rows, and a bias vector as one row. -/
def upper (w : FVec Ideal S256x128 .f32) : FVec Ideal S128x128 .f32 := extractStridedSlice S128x128 ![0, 0] w slices_S256x128_S128x128_0_0
def lower (w : FVec Ideal S256x128 .f32) : FVec Ideal S128x128 .f32 := extractStridedSlice S128x128 ![128, 0] w slices_S256x128_S128x128_128_0
def asRow (b : FVec Ideal S128 .f32) : FVec Ideal S1x128 .f32 := shapeCast S1x128 b shapeCasts_S128_S1x128

/-- The messages, one row per edge. -/
def messages (a0 : FVec Ideal S40000x128 .f32) (a1 : IVec S2x640000 32) (a2 : FVec Ideal S640000x128 .f32)
    (a3 : FVec Ideal S256x128 .f32) (a4 : FVec Ideal S128 .f32) : FVec Ideal S640000x128 .bf16 :=
  MsgValue.msgs (gathered a0 a1) a2 (upper a3) (lower a3) (asRow a4)

/-- The messages added up at their destination rows. -/
def aggregated (a0 : FVec Ideal S40000x128 .f32) (a1 : IVec S2x640000 32) (a2 : FVec Ideal S640000x128 .f32)
    (a3 : FVec Ideal S256x128 .f32) (a4 : FVec Ideal S128 .f32) : FVec Ideal S40000x128 .f32 :=
  Host.scatterAdd scatter_S40000x128_S640000x1_S640000x128_1_0_0_1
    (broadcastInDim S40000x128 ![] bcast_S_S40000x128 (constant (F := Ideal) S_ .f32 0x00000000#32))
    (dstIdx a1) (extf .f32 (messages a0 a1 a2 a3 a4) bitsLt_bf16_f32)

/-- The program's result as one function of its nine arguments. -/
def result (a0 : FVec Ideal S40000x128 .f32) (a1 : IVec S2x640000 32) (a2 : FVec Ideal S640000x128 .f32)
    (a3 : FVec Ideal S256x128 .f32) (a4 : FVec Ideal S128 .f32) (a5 : FVec Ideal S256x128 .f32) (a6 : FVec Ideal S128 .f32)
    (a7 : FVec Ideal S128x128 .f32) (a8 : FVec Ideal S128 .f32) : FVec Ideal S40000x128 .f32 :=
  UpdValue.updated a0 (aggregated a0 a1 a2 a3 a4) (upper a5) (lower a5) (asRow a6) a7 (asRow a8)

variable (m : (ℓ : Loc nD τ sig) → Buf (Elt Ideal) ℓ) (ρ : Dev nD → PrngReg)

/-! ## The first region's operands, as the region finds them -/

theorem entry0_src (c : Dev nD) : V1 m ρ c main_v11
    = gathered (m ((c : Thread nD τ).loc main_arg0)) (m ((c : Thread nD τ).loc main_arg1)) := by
  show StableHlo.after hostOps0 (W0 m ρ c) (Proc.devRef .tc main_v11) = _
  after_results
  rfl

theorem entry0_edge (c : Dev nD) : V1 m ρ c main_arg2 = m ((c : Thread nD τ).loc main_arg2) := by
  show StableHlo.after hostOps0 (W0 m ρ c) (Proc.devRef .tc main_arg2) = _
  after_results

theorem entry0_wa (c : Dev nD) : V1 m ρ c main_v12 = upper (m ((c : Thread nD τ).loc main_arg3)) := by
  show StableHlo.after hostOps0 (W0 m ρ c) (Proc.devRef .tc main_v12) = _
  after_results
  rfl

theorem entry0_wb (c : Dev nD) : V1 m ρ c main_v13 = lower (m ((c : Thread nD τ).loc main_arg3)) := by
  show StableHlo.after hostOps0 (W0 m ρ c) (Proc.devRef .tc main_v13) = _
  after_results
  rfl

theorem entry0_bias (c : Dev nD) : V1 m ρ c main_v14 = asRow (m ((c : Thread nD τ).loc main_arg4)) := by
  show StableHlo.after hostOps0 (W0 m ρ c) (Proc.devRef .tc main_v14) = _
  after_results
  rfl

/-- The first region leaves the messages. -/
theorem exit0_messages (c : Dev nD) : W2 m ρ c (Proc.devRef .tc main_v15)
    = messages (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 5).trans ((MsgValue.final (V1 m ρ) c).trans ?_)
  rw [entry0_src, entry0_edge, entry0_wa, entry0_wb, entry0_bias]
  rfl

/-! ## Buffers the first region does not write, at its exit -/

theorem exit0_dst (c : Dev nD) : W2 m ρ c (Proc.devRef .tc main_v3) = dstRow (m ((c : Thread nD τ).loc main_arg1)) := by
  refine (W2_of_ne m ρ c main_v3 (by decide)).trans ?_
  show StableHlo.after hostOps0 (W0 m ρ c) (Proc.devRef .tc main_v3) = _
  after_results
  rfl

theorem exit0_arg (c : Dev nD) (b : Ref sig .tc) (hb : ∀ w, Pipeline.arrRef spec0 w ≠ b)
    (hw : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans hw

theorem exit0_arg0 (c : Dev nD) : W2 m ρ c (Proc.devRef .tc main_arg0) = m ((c : Thread nD τ).loc main_arg0) :=
  exit0_arg m ρ c main_arg0 (by decide) (by after_results)
theorem exit0_arg5 (c : Dev nD) : W2 m ρ c (Proc.devRef .tc main_arg5) = m ((c : Thread nD τ).loc main_arg5) :=
  exit0_arg m ρ c main_arg5 (by decide) (by after_results)
theorem exit0_arg6 (c : Dev nD) : W2 m ρ c (Proc.devRef .tc main_arg6) = m ((c : Thread nD τ).loc main_arg6) :=
  exit0_arg m ρ c main_arg6 (by decide) (by after_results)
theorem exit0_arg7 (c : Dev nD) : W2 m ρ c (Proc.devRef .tc main_arg7) = m ((c : Thread nD τ).loc main_arg7) :=
  exit0_arg m ρ c main_arg7 (by decide) (by after_results)
theorem exit0_arg8 (c : Dev nD) : W2 m ρ c (Proc.devRef .tc main_arg8) = m ((c : Thread nD τ).loc main_arg8) :=
  exit0_arg m ρ c main_arg8 (by decide) (by after_results)

/-! ## The second region's operands, as the region finds them -/

theorem entry1_nodes (c : Dev nD) : V3 m ρ c main_arg0 = m ((c : Thread nD τ).loc main_arg0) := by
  show StableHlo.after hostOps1 (W2 m ρ c) (Proc.devRef .tc main_arg0) = _
  after_results
  exact exit0_arg0 m ρ c

theorem entry1_agg (c : Dev nD) : V3 m ρ c main_v19
    = aggregated (m ((c : Thread nD τ).loc main_arg0)) (m ((c : Thread nD τ).loc main_arg1)) (m ((c : Thread nD τ).loc main_arg2))
        (m ((c : Thread nD τ).loc main_arg3)) (m ((c : Thread nD τ).loc main_arg4)) := by
  show StableHlo.after hostOps1 (W2 m ρ c) (Proc.devRef .tc main_v19) = _
  after_results
  rw [exit0_dst, exit0_messages]
  rfl

theorem entry1_ua (c : Dev nD) : V3 m ρ c main_v20 = upper (m ((c : Thread nD τ).loc main_arg5)) := by
  show StableHlo.after hostOps1 (W2 m ρ c) (Proc.devRef .tc main_v20) = _
  after_results
  rw [exit0_arg5]
  rfl

theorem entry1_ub (c : Dev nD) : V3 m ρ c main_v21 = lower (m ((c : Thread nD τ).loc main_arg5)) := by
  show StableHlo.after hostOps1 (W2 m ρ c) (Proc.devRef .tc main_v21) = _
  after_results
  rw [exit0_arg5]
  rfl

theorem entry1_b1 (c : Dev nD) : V3 m ρ c main_v22 = asRow (m ((c : Thread nD τ).loc main_arg6)) := by
  show StableHlo.after hostOps1 (W2 m ρ c) (Proc.devRef .tc main_v22) = _
  after_results
  rw [exit0_arg6]
  rfl

theorem entry1_w (c : Dev nD) : V3 m ρ c main_arg7 = m ((c : Thread nD τ).loc main_arg7) := by
  show StableHlo.after hostOps1 (W2 m ρ c) (Proc.devRef .tc main_arg7) = _
  after_results
  exact exit0_arg7 m ρ c

theorem entry1_b2 (c : Dev nD) : V3 m ρ c main_v23 = asRow (m ((c : Thread nD τ).loc main_arg8)) := by
  show StableHlo.after hostOps1 (W2 m ρ c) (Proc.devRef .tc main_v23) = _
  after_results
  rw [exit0_arg8]
  rfl

/-- The program's result buffer at the last boundary is the result function of the launch contents of the arguments. -/
theorem exit1_result (c : Dev nD) : W4 m ρ c (Proc.devRef .tc main_v24)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W4_arr m ρ c 7).trans ((UpdValue.final (V3 m ρ) c).trans ?_)
  rw [entry1_nodes, entry1_agg, entry1_ua, entry1_ub, entry1_b1, entry1_w, entry1_b2]
  rfl

end Cert.KernelIdeal.HostValue

end
-- ==== Proof.LibConcat.lean ====
/-
  Two general tools for reading a fold of host operations when one of them is a concatenation.

  The host's concatenation takes a LIST of arrays, each paired with its shape, and its side condition (the shapes fit
  together along the axis) is stated about that list; so the list cannot be rewritten in place, and a fold of operations
  standing inside it is never read. For two arrays, `cat2` is the same concatenation as a function of the two arrays
  with the shapes fixed first, `concatenate_pair` says so, and the tactic `fold_results` reads a fold of nullary to
  ternary host operations at a buffer — each operation's result at its own buffer is its function of its operands, at
  any other buffer what was there — going through two-array concatenations by that equation.
-/
import Idealize.ShloMosaic.Lib.StableHlo.Run

noncomputable section

namespace Cert.LibConcat

open Idealize.ShloMosaic Idealize.ShloMosaic.StableHlo

variable {α : Type}

/-- The concatenation of two arrays along axis `a`, as a function of the two arrays. -/
def cat2 (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The host's concatenation of a two-element list is `cat2` of its two arrays. -/
theorem concatenate_pair (t : Shape) (a : Fin t.rank) (s1 s2 : Shape) (x : s1.Idx → α) (y : s2.Idx → α)
    (h : Shape.Concatenates (List.map (Sigma.fst (β := fun s : Shape => s.Idx → α)) [⟨s1, x⟩, ⟨s2, y⟩]) t a) :
    concatenate t a [⟨s1, x⟩, ⟨s2, y⟩] h = cat2 t a s1 s2 h x y := rfl

/-- Reads a fold of host operations at a buffer, in one simplification pass, through two-array concatenations. -/
macro "fold_results" : tactic =>
  `(tactic| (simp (disch := decide) only [after_cons, after_nil,
      nullary_result', unary_result', binary_result', ternary_result',
      nullary_result_ne', unary_result_ne', binary_result_ne', ternary_result_ne', concatenate_pair]))

end Cert.LibConcat

end
-- ==== Proof.LibFoldCat.lean ====
/-
  Reading a fold of host operations at a buffer in one simplification pass, through two-array concatenations.

  Each operation's result at its own buffer is its function of its operands, and at any other buffer what was there;
  a concatenation of two arrays is first rewritten as a function of the two arrays (`Cert.LibConcat.concatenate_pair`),
  since the list a concatenation takes is not rewritten in place. The pass is the library's one-pass reading of a fold
  with that one equation added, so it also covers reshapes and operations of four operands.
-/
import Idealize.ShloMosaic.Lib.StableHlo.Run
import proofs.«148401_j13073880449416_2_alg».proof.Proof.LibConcat

namespace Cert.LibFoldCat

open Idealize.ShloMosaic Idealize.ShloMosaic.StableHlo

/-- Reads a fold of host operations at a buffer, going through two-array concatenations. -/
macro "fold_read" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcat.concatenate_pair]))

end Cert.LibFoldCat
-- ==== Proof.RefValue.lean ====
/-
  The reference program's result as a composition of named stages.

  The reference gathers the source rows of the node features, joins them with the edge features along the columns,
  applies one dense layer of `256` input columns and `silu`, scatter-adds the messages to their destination rows, joins
  the node features with the aggregate, applies a second dense layer of `256` input columns and `silu`, a third dense
  layer, and adds the node features. Each stage below is the host's own spelling of that step; the run's composed term
  is their composition.
-/
import Idealize.ShloMosaic.PureOps.Ideal
import proofs.«148401_j13073880449416_2_alg».proof.Proof.RefRun

set_option maxRecDepth 16384

noncomputable section

namespace Cert.ReferenceIdeal.RefValue

open Cert.ReferenceIdeal Cert.ReferenceIdeal.Gen
open Idealize.ShloMosaic Idealize.ShloMosaic.TcCoe Idealize.SL.Sem

def srcRow (a1 : IVec S2x640000 32) : IVec S640000 32 :=
  shapeCast S640000 (extractStridedSlice S1x640000 ![0, 0] a1 slices_S2x640000_S1x640000_0_0) shapeCasts_S1x640000_S640000
def dstRow (a1 : IVec S2x640000 32) : IVec S640000 32 :=
  shapeCast S640000 (extractStridedSlice S1x640000 ![1, 0] a1 slices_S2x640000_S1x640000_1_0) shapeCasts_S1x640000_S640000

/-- The source rows of the node features, one per edge: a negative index moved up by the node count first. -/
def gathered (a0 : FVec Ideal S40000x128 .f32) (a1 : IVec S2x640000 32) : FVec Ideal S640000x128 .f32 :=
  Host.gather gather_S40000x128_S640000x1_S640000x128_1_0_n_n_0_1_1128 a0
    (broadcastInDim S640000x1 ![0] bcast_S640000_S640000x1_0
      (select (cmpi .slt (srcRow a1) (broadcastInDim S640000 ![] bcast_S_S640000 (constantI S_ 32 0#32)))
        (addi (srcRow a1) (broadcastInDim S640000 ![] bcast_S_S640000 (constantI S_ 32 40000#32))) (srcRow a1)))

/-- The message layer before its activation: the joined input against the whole weight matrix, plus the bias. -/
def preMsg (a0 : FVec Ideal S40000x128 .f32) (a1 : IVec S2x640000 32) (a2 : FVec Ideal S640000x128 .f32)
    (a3 : FVec Ideal S256x128 .f32) (a4 : FVec Ideal S128 .f32) : FVec Ideal S640000x128 .f32 :=
  addf (Host.dotGeneral dot_S640000x256_S256x128_S640000x128_1_0_0_1_n_n none
      (concatenate S640000x256 1 [⟨S640000x128, gathered a0 a1⟩, ⟨S640000x128, a2⟩] concatenates_S640000x128_S640000x128_S640000x256_d1) a3)
    (broadcastInDim S640000x128 ![0, 1] bcast_S1x128_S640000x128_0_1 (broadcastInDim S1x128 ![1] bcast_S128_S1x128_1 a4))

/-- The messages: `x · (1 / (1 + exp (-x)))` of the pre-activation. -/
def messages (a0 : FVec Ideal S40000x128 .f32) (a1 : IVec S2x640000 32) (a2 : FVec Ideal S640000x128 .f32)
    (a3 : FVec Ideal S256x128 .f32) (a4 : FVec Ideal S128 .f32) : FVec Ideal S640000x128 .f32 :=
  mulf (preMsg a0 a1 a2 a3 a4)
    (Host.divf (broadcastInDim S640000x128 ![] bcast_S_S640000x128 (constant (F := Ideal) S_ .f32 0x3F800000#32))
      (addf (broadcastInDim S640000x128 ![] bcast_S_S640000x128 (constant (F := Ideal) S_ .f32 0x3F800000#32))
        (Host.exp (Host.negf (preMsg a0 a1 a2 a3 a4)))))

/-- The messages added up at their destination rows, from zeros. -/
def aggregated (a0 : FVec Ideal S40000x128 .f32) (a1 : IVec S2x640000 32) (a2 : FVec Ideal S640000x128 .f32)
    (a3 : FVec Ideal S256x128 .f32) (a4 : FVec Ideal S128 .f32) : FVec Ideal S40000x128 .f32 :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 (dstRow a1)) (messages a0 a1 a2 a3 a4)

/-- The update layer before its activation. -/
def preUpd (a0 : FVec Ideal S40000x128 .f32) (agg : FVec Ideal S40000x128 .f32) (a5 : FVec Ideal S256x128 .f32)
    (a6 : FVec Ideal S128 .f32) : FVec Ideal S40000x128 .f32 :=
  addf (Host.dotGeneral dot_S40000x256_S256x128_S40000x128_1_0_0_1_n_n none
      (concatenate S40000x256 1 [⟨S40000x128, a0⟩, ⟨S40000x128, agg⟩] concatenates_S40000x128_S40000x128_S40000x256_d1) a5)
    (broadcastInDim S40000x128 ![0, 1] bcast_S1x128_S40000x128_0_1 (broadcastInDim S1x128 ![1] bcast_S128_S1x128_1 a6))

/-- The hidden layer of the update. -/
def hidden (a0 : FVec Ideal S40000x128 .f32) (agg : FVec Ideal S40000x128 .f32) (a5 : FVec Ideal S256x128 .f32)
    (a6 : FVec Ideal S128 .f32) : FVec Ideal S40000x128 .f32 :=
  mulf (preUpd a0 agg a5 a6)
    (Host.divf (broadcastInDim S40000x128 ![] bcast_S_S40000x128 (constant (F := Ideal) S_ .f32 0x3F800000#32))
      (addf (broadcastInDim S40000x128 ![] bcast_S_S40000x128 (constant (F := Ideal) S_ .f32 0x3F800000#32))
        (Host.exp (Host.negf (preUpd a0 agg a5 a6)))))

/-- The reference's result as one function of its nine arguments. -/
def result (a0 : FVec Ideal S40000x128 .f32) (a1 : IVec S2x640000 32) (a2 : FVec Ideal S640000x128 .f32)
    (a3 : FVec Ideal S256x128 .f32) (a4 : FVec Ideal S128 .f32) (a5 : FVec Ideal S256x128 .f32) (a6 : FVec Ideal S128 .f32)
    (a7 : FVec Ideal S128x128 .f32) (a8 : FVec Ideal S128 .f32) : FVec Ideal S40000x128 .f32 :=
  addf a0 (addf (Host.dotGeneral dot_S40000x128_S128x128_S40000x128_1_0_0_1_n_n none
      (hidden a0 (aggregated a0 a1 a2 a3 a4) a5 a6) a7)
    (broadcastInDim S40000x128 ![0, 1] bcast_S1x128_S40000x128_0_1 (broadcastInDim S1x128 ![1] bcast_S128_S1x128_1 a8)))

/-- The run's composed term is the stages' composition. -/
theorem res_eq (m : (ℓ : Loc nD τ sig) → Buf (Elt Ideal) ℓ) (c : Dev nD) :
    RunP.res_main_v30 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold RunP.res_main_v30
  rfl

end Cert.ReferenceIdeal.RefValue

end
-- ==== Proof.LibTwoBlockHost.lean ====
/-
  The two-block dense layer and the output layer in the spelling of a host program, read at a row and a column.

  The host joins the two input blocks along the columns and multiplies ONCE by the whole weight matrix of `256` rows;
  the bias vector is laid along every row by two broadcasts. Read at `(r, j)` this is the pre-activation `pre` of the two
  blocks against the upper and the lower half of the weight matrix: the sum over the `256` joined columns splits into
  its first and its last `128` terms, the first reading the left block and rows `0 … 127` of the weights, the last the
  right block and rows `128 … 255`. The host spells the activation `x · (1 / (1 + exp (-x)))`, which is `silu`.
-/
import Idealize.ShloMosaic.Lib.IdealHost
import proofs.«148401_j13073880449416_2_alg».proof.Proof.LibTwoBlock

noncomputable section

namespace Cert.TwoBlock

open Idealize.ShloMosaic Idealize.ShloMosaic.ValueIdx

/-- The host's `x · (1 / (1 + exp (-x)))`, the ones splat from a scalar constant, is `silu` entry by entry. -/
theorem host_silu_apply {s : Shape} (z : FVec Ideal s .f32) (hb : (⟨0, ![]⟩ : Shape).BroadcastsInDim s ![]) (i : s.Idx) :
    mulf z (Host.divf (F := Ideal) (broadcastInDim s ![] hb (constant (F := Ideal) ⟨0, ![]⟩ .f32 0x3F800000#32))
      (addf (broadcastInDim s ![] hb (constant (F := Ideal) ⟨0, ![]⟩ .f32 0x3F800000#32)) (Host.exp (Host.negf z)))) i
      = silu (z i) := by
  have h1 : broadcastInDim s ![] hb (constant (F := Ideal) ⟨0, ![]⟩ .f32 0x3F800000#32) i = (1 : EReal) :=
    Ideal.ofBits_one_f32
  show z i * Ideal.div (broadcastInDim s ![] hb (constant (F := Ideal) ⟨0, ![]⟩ .f32 0x3F800000#32) i)
      (broadcastInDim s ![] hb (constant (F := Ideal) ⟨0, ![]⟩ .f32 0x3F800000#32) i + Ideal.exp (-(z i)))
    = z i * Ideal.div 1 (1 + Ideal.exp (-(z i)))
  rw [h1]

/-- The host's joined-input dense layer at `(r, j)` is the two-block pre-activation against the two halves of the weights. -/
theorem host_pre_apply {R : ℕ} (X Y : FVec Ideal ⟨2, ![R, 128]⟩ .f32) (W : FVec Ideal ⟨2, ![256, 128]⟩ .f32)
    (b : FVec Ideal ⟨1, ![128]⟩ .f32)
    (hcat : Shape.Concatenates [(⟨2, ![R, 128]⟩ : Shape), ⟨2, ![R, 128]⟩] ⟨2, ![R, 256]⟩ 1)
    (wf : DotDims.WF ⟨2, ![R, 256]⟩ ⟨2, ![256, 128]⟩ ⟨2, ![R, 128]⟩ [1] [0] [0] [1] [] [])
    (hd1 : (⟨1, ![128]⟩ : Shape).BroadcastsInDim ⟨2, ![1, 128]⟩ ![1])
    (hd : (⟨2, ![1, 128]⟩ : Shape).BroadcastsInDim ⟨2, ![R, 128]⟩ ![0, 1])
    (hs0 : (⟨2, ![256, 128]⟩ : Shape).Slices ![0, 0] ⟨2, ![128, 128]⟩)
    (hs1 : (⟨2, ![256, 128]⟩ : Shape).Slices ![128, 0] ⟨2, ![128, 128]⟩)
    (hc : (⟨1, ![128]⟩ : Shape).ShapeCasts ⟨2, ![1, 128]⟩) (r : Fin R) (j : Fin 128) :
    addf (Host.dotGeneral (⟨[1], [0], [0], [1], [], [], wf⟩ : DotDims _ _ _) none
          (concatenate ⟨2, ![R, 256]⟩ 1 [⟨⟨2, ![R, 128]⟩, X⟩, ⟨⟨2, ![R, 128]⟩, Y⟩] hcat) W)
        (broadcastInDim ⟨2, ![R, 128]⟩ ![0, 1] hd (broadcastInDim ⟨2, ![1, 128]⟩ ![1] hd1 b)) (ix2 r j)
      = pre X Y (extractStridedSlice ⟨2, ![128, 128]⟩ ![0, 0] W hs0) (extractStridedSlice ⟨2, ![128, 128]⟩ ![128, 0] W hs1)
          (fun j => shapeCast ⟨2, ![1, 128]⟩ b hc (ix2 (0 : Fin 1) j)) r j := by
  unfold pre
  refine congrArg₂ (· + ·) ?_ ?_
  · refine (Cert.LibRowOps.dotGeneral_plain_apply wf none _ W r j).trans ((sum_256 _).trans (congrArg₂ (· + ·) ?_ ?_))
    · refine Finset.sum_congr rfl fun c _ => congrArg₂ (· * ·) ?_ ?_
      · exact concatenate_pair_apply_left (1 : Fin 2) X Y hcat (ix2 r (⟨c.val, by omega⟩ : Fin 256)) rfl (ix2 r c)
          (fun a => match a with | ⟨0, _⟩ => rfl | ⟨1, _⟩ => rfl)
      · exact (extractStridedSlice_apply ![0, 0] W hs0 (ix2 c j) (ix2 (⟨c.val, by omega⟩ : Fin 256) j) (fun a => match a with
          | ⟨0, _⟩ => by show c.val = 0 + c.val; omega
          | ⟨1, _⟩ => by show j.val = 0 + j.val; omega)).symm
    · refine Finset.sum_congr rfl fun c _ => congrArg₂ (· * ·) ?_ ?_
      · exact concatenate_pair_apply_right (1 : Fin 2) X Y hcat (ix2 r (⟨128 + c.val, by omega⟩ : Fin 256)) rfl rfl (ix2 r c)
          (fun a => match a with | ⟨0, _⟩ => fun _ => rfl | ⟨1, _⟩ => fun h => absurd rfl h)
          (by show c.val + 128 = 128 + c.val; omega)
      · exact (extractStridedSlice_apply ![128, 0] W hs1 (ix2 c j) (ix2 (⟨128 + c.val, by omega⟩ : Fin 256) j) (fun a => match a with
          | ⟨0, _⟩ => by show 128 + c.val = 128 + c.val; rfl
          | ⟨1, _⟩ => by show j.val = 0 + j.val; omega)).symm
  · refine (Cert.LibRowOps.rowVec_host_apply b hd1 hd r j).trans ?_
    exact (shapeCast_apply b hc (ix2 (0 : Fin 1) j) (ix1 j) (by
      rw [Shape.rowMajor_val_two, Shape.rowMajor_val_one]; show j.val = 0 * 128 + j.val; omega)).symm

/-- The host's output layer at `(r, j)`: the residual plus the hidden row against one column of the weights plus the bias. -/
theorem host_postact_apply {R : ℕ} (N H : FVec Ideal ⟨2, ![R, 128]⟩ .f32) (W : FVec Ideal ⟨2, ![128, 128]⟩ .f32)
    (b : FVec Ideal ⟨1, ![128]⟩ .f32)
    (wf : DotDims.WF ⟨2, ![R, 128]⟩ ⟨2, ![128, 128]⟩ ⟨2, ![R, 128]⟩ [1] [0] [0] [1] [] [])
    (hd1 : (⟨1, ![128]⟩ : Shape).BroadcastsInDim ⟨2, ![1, 128]⟩ ![1])
    (hd : (⟨2, ![1, 128]⟩ : Shape).BroadcastsInDim ⟨2, ![R, 128]⟩ ![0, 1])
    (hc : (⟨1, ![128]⟩ : Shape).ShapeCasts ⟨2, ![1, 128]⟩) (r : Fin R) (j : Fin 128) :
    addf N (addf (Host.dotGeneral (⟨[1], [0], [0], [1], [], [], wf⟩ : DotDims _ _ _) none H W)
        (broadcastInDim ⟨2, ![R, 128]⟩ ![0, 1] hd (broadcastInDim ⟨2, ![1, 128]⟩ ![1] hd1 b))) (ix2 r j)
      = postact N H W (fun j => shapeCast ⟨2, ![1, 128]⟩ b hc (ix2 (0 : Fin 1) j)) r j := by
  unfold postact
  refine congrArg (N (ix2 r j) + ·) (congrArg₂ (· + ·) ?_ ?_)
  · exact Cert.LibRowOps.dotGeneral_plain_apply wf none H W r j
  · refine (Cert.LibRowOps.rowVec_host_apply b hd1 hd r j).trans ?_
    exact (shapeCast_apply b hc (ix2 (0 : Fin 1) j) (ix1 j) (by
      rw [Shape.rowMajor_val_two, Shape.rowMajor_val_one]; show j.val = 0 * 128 + j.val; omega)).symm

end Cert.TwoBlock

end
-- ==== Proof.Bridge.lean ====
/-
  The kernel program and the reference compute one function of the nine arguments, on the exact extended reals.

  The two programs gather the same source rows and scatter-add at the same destination rows, so the comparison is of
  the two dense stages. In each, the reference multiplies the input rows JOINED along the columns by the whole weight
  matrix of `256` rows, and the kernel multiplies each block by its half of the weights and adds the two products: the
  sum over `256` columns is the sum of its first `128` terms and its last `128` (`Cert.TwoBlock.sum_256`), which needs
  only that addition is associative and commutative, so no input has to be finite. Both apply `x · σ(x)` (the kernel
  with the logistic function, the reference with `1 / (1 + exp (-x))`: one function on the extended reals), the third
  dense layer with one weight matrix, and the residual.
-/
import proofs.«148401_j13073880449416_2_alg».proof.Proof.KernelHost
import proofs.«148401_j13073880449416_2_alg».proof.Proof.RefValue
import proofs.«148401_j13073880449416_2_alg».proof.Proof.LibTwoBlockHost

set_option maxRecDepth 16384

noncomputable section

namespace Cert.Bridge

open Idealize.ShloMosaic Idealize.ShloMosaic.ValueIdx
open Cert.TwoBlock
open Cert.KernelIdeal (S40000x128 S2x640000 S640000x128 S256x128 S128 S128x128 S1x128)

/-- Both programs gather the same rows: rounding the node features to a narrower format first changes nothing on the
    extended reals, and the index arithmetic is the same. -/
theorem gathered_eq (a0 : FVec Ideal S40000x128 .f32) (a1 : IVec S2x640000 32) :
    Cert.KernelIdeal.HostValue.gathered a0 a1 = Cert.ReferenceIdeal.RefValue.gathered a0 a1 := rfl

/-- The messages agree, entry by entry. -/
theorem messages_eq (a0 : FVec Ideal S40000x128 .f32) (a1 : IVec S2x640000 32) (a2 : FVec Ideal S640000x128 .f32)
    (a3 : FVec Ideal S256x128 .f32) (a4 : FVec Ideal S128 .f32) :
    Cert.KernelIdeal.HostValue.messages a0 a1 a2 a3 a4 = Cert.ReferenceIdeal.RefValue.messages a0 a1 a2 a3 a4 := by
  funext i
  obtain ⟨r, j, rfl⟩ : ∃ (r : Fin 640000) (j : Fin 128), i = ix2 r j := ⟨i 0, i 1, eq_ix2 i⟩
  show silu (pre (Cert.KernelIdeal.HostValue.gathered a0 a1) a2 (Cert.KernelIdeal.HostValue.upper a3) (Cert.KernelIdeal.HostValue.lower a3)
      (fun j => Cert.KernelIdeal.HostValue.asRow a4 (ix2 (0 : Fin 1) j)) r j) = _
  rw [gathered_eq]
  refine Eq.trans ?_ (host_silu_apply (Cert.ReferenceIdeal.RefValue.preMsg a0 a1 a2 a3 a4) Cert.ReferenceIdeal.Gen.bcast_S_S640000x128 (ix2 r j)).symm
  refine congrArg silu (Eq.symm ?_)
  exact host_pre_apply (R := 640000) (Cert.ReferenceIdeal.RefValue.gathered a0 a1) a2 a3 a4
    Cert.ReferenceIdeal.Gen.concatenates_S640000x128_S640000x128_S640000x256_d1
    Cert.ReferenceIdeal.dot_S640000x256_S256x128_S640000x128_1_0_0_1_n_n.wf
    Cert.ReferenceIdeal.Gen.bcast_S128_S1x128_1 Cert.ReferenceIdeal.Gen.bcast_S1x128_S640000x128_0_1
    Cert.KernelIdeal.Gen.slices_S256x128_S128x128_0_0 Cert.KernelIdeal.Gen.slices_S256x128_S128x128_128_0
    Cert.KernelIdeal.Gen.shapeCasts_S128_S1x128 r j

/-- The aggregated messages agree: the same scatter-add of equal messages. -/
theorem aggregated_eq (a0 : FVec Ideal S40000x128 .f32) (a1 : IVec S2x640000 32) (a2 : FVec Ideal S640000x128 .f32)
    (a3 : FVec Ideal S256x128 .f32) (a4 : FVec Ideal S128 .f32) :
    Cert.KernelIdeal.HostValue.aggregated a0 a1 a2 a3 a4 = Cert.ReferenceIdeal.RefValue.aggregated a0 a1 a2 a3 a4 := by
  show Host.scatterAdd Cert.ReferenceIdeal.scatter_S40000x128_S640000x1_S640000x128_1_0_0_1
      (broadcastInDim Cert.ReferenceIdeal.S40000x128 ![] Cert.ReferenceIdeal.Gen.bcast_S_S40000x128 (constant (F := Ideal) Cert.ReferenceIdeal.S_ .f32 0x00000000#32))
      (broadcastInDim Cert.ReferenceIdeal.S640000x1 ![0] Cert.ReferenceIdeal.Gen.bcast_S640000_S640000x1_0 (Cert.ReferenceIdeal.RefValue.dstRow a1))
      (Cert.KernelIdeal.HostValue.messages a0 a1 a2 a3 a4) = _
  rw [messages_eq]
  rfl

/-- The two programs' results agree, entry by entry. -/
theorem result_eq (a0 : FVec Ideal S40000x128 .f32) (a1 : IVec S2x640000 32) (a2 : FVec Ideal S640000x128 .f32)
    (a3 : FVec Ideal S256x128 .f32) (a4 : FVec Ideal S128 .f32) (a5 : FVec Ideal S256x128 .f32) (a6 : FVec Ideal S128 .f32)
    (a7 : FVec Ideal S128x128 .f32) (a8 : FVec Ideal S128 .f32) :
    Cert.KernelIdeal.HostValue.result a0 a1 a2 a3 a4 a5 a6 a7 a8 = Cert.ReferenceIdeal.RefValue.result a0 a1 a2 a3 a4 a5 a6 a7 a8 := by
  funext i
  obtain ⟨r, j, rfl⟩ : ∃ (r : Fin 40000) (j : Fin 128), i = ix2 r j := ⟨i 0, i 1, eq_ix2 i⟩
  show postact a0 (Cert.KernelIdeal.UpdValue.hidden a0 (Cert.KernelIdeal.HostValue.aggregated a0 a1 a2 a3 a4)
        (Cert.KernelIdeal.HostValue.upper a5) (Cert.KernelIdeal.HostValue.lower a5) (Cert.KernelIdeal.HostValue.asRow a6)) a7
      (fun j => Cert.KernelIdeal.HostValue.asRow a8 (ix2 (0 : Fin 1) j)) r j = _
  rw [aggregated_eq]
  refine Eq.trans ?_ (host_postact_apply (R := 40000) a0
    (Cert.ReferenceIdeal.RefValue.hidden a0 (Cert.ReferenceIdeal.RefValue.aggregated a0 a1 a2 a3 a4) a5 a6) a7 a8
    Cert.ReferenceIdeal.dot_S40000x128_S128x128_S40000x128_1_0_0_1_n_n.wf
    Cert.ReferenceIdeal.Gen.bcast_S128_S1x128_1 Cert.ReferenceIdeal.Gen.bcast_S1x128_S40000x128_0_1
    Cert.KernelIdeal.Gen.shapeCasts_S128_S1x128 r j).symm
  refine postact_congr _ _ _ _ _ _ _ _ r r j j rfl (fun k => ?_) (fun _ => rfl) rfl
  show silu (pre a0 (Cert.ReferenceIdeal.RefValue.aggregated a0 a1 a2 a3 a4) (Cert.KernelIdeal.HostValue.upper a5)
      (Cert.KernelIdeal.HostValue.lower a5) (fun j => Cert.KernelIdeal.HostValue.asRow a6 (ix2 (0 : Fin 1) j)) r k) = _
  refine Eq.trans ?_ (host_silu_apply (Cert.ReferenceIdeal.RefValue.preUpd a0 (Cert.ReferenceIdeal.RefValue.aggregated a0 a1 a2 a3 a4) a5 a6)
    Cert.ReferenceIdeal.Gen.bcast_S_S40000x128 (ix2 r k)).symm
  refine congrArg silu (Eq.symm ?_)
  exact host_pre_apply (R := 40000) a0 (Cert.ReferenceIdeal.RefValue.aggregated a0 a1 a2 a3 a4) a5 a6
    Cert.ReferenceIdeal.Gen.concatenates_S40000x128_S40000x128_S40000x256_d1
    Cert.ReferenceIdeal.dot_S40000x256_S256x128_S40000x128_1_0_0_1_n_n.wf
    Cert.ReferenceIdeal.Gen.bcast_S128_S1x128_1 Cert.ReferenceIdeal.Gen.bcast_S1x128_S40000x128_0_1
    Cert.KernelIdeal.Gen.slices_S256x128_S128x128_0_0 Cert.KernelIdeal.Gen.slices_S256x128_S128x128_128_0
    Cert.KernelIdeal.Gen.shapeCasts_S128_S1x128 r k

end Cert.Bridge

end
-- ==== Proof.lean ====
/-
  A message-passing layer of a graph network, over 40000 nodes and 640000 edges with 128 features: on the exact
  extended reals the tiled program and the plain one compute the same updated node features.

  Both programs gather the source node's features for every edge, form the message
  `silu ([x_src | e] · M + b)` from the gathered row joined with the edge's features, add the messages up at their
  destination nodes, and return `x + (silu ([x | agg] · U₁ + c₁) · U₂ + c₂)`. The tiled program never joins rows: it
  cuts `M` and `U₁` into an upper and a lower half and adds two products, `x_src · M↑ + e · M↓`, computed block by
  block over 80 blocks of 8000 edges and 8 blocks of 5000 nodes. A sum over the `256` joined columns is the sum of its
  first `128` terms plus the sum of its last `128`; that is the only law used (Proof/LibTwoBlock.lean), and it holds at
  the infinities too, so the precondition that the inputs are finite is never opened. Format changes are the identity
  on the extended reals, and the logistic function is `1 / (1 + exp (-x))` there by definition.

  The modules: Proof/LibTwoBlock.lean (the two dense layers at a row and a column, and the split of the sum),
  Proof/LibTwoBlockHost.lean (the same layers in the host's spelling), Proof/MsgValue.lean and Proof/UpdValue.lean (what
  each of the two pipelined regions leaves, as one function of its operand arrays), Proof/KernelRun.lean (the tiled
  program's run with its result named), Proof/KernelHost.lean (the host operations around the regions, read back to the
  arguments), Proof/RefRun.lean and Proof/RefValue.lean (the plain program's run and its result in stages),
  Proof/Bridge.lean (the two results are one function).
-/
import proofs.«148401_j13073880449416_2_alg».proof.Defs
import proofs.«148401_j13073880449416_2_alg».proof.Proof.Gen.Kernel
import proofs.«148401_j13073880449416_2_alg».proof.Proof.Gen.Kernel.Skeleton
import proofs.«148401_j13073880449416_2_alg».proof.Proof.Gen.Kernel.Launch
import proofs.«148401_j13073880449416_2_alg».proof.Proof.Gen.Kernel.Points
import proofs.«148401_j13073880449416_2_alg».proof.Proof.Gen.Kernel.Frame
import proofs.«148401_j13073880449416_2_alg».proof.Proof.Gen.KernelIdeal
import proofs.«148401_j13073880449416_2_alg».proof.Proof.Gen.KernelIdeal.Skeleton
import proofs.«148401_j13073880449416_2_alg».proof.Proof.Gen.KernelIdeal.Launch
import proofs.«148401_j13073880449416_2_alg».proof.Proof.Gen.KernelIdeal.Points
import proofs.«148401_j13073880449416_2_alg».proof.Proof.Gen.KernelIdeal.Frame
import proofs.«148401_j13073880449416_2_alg».proof.Proof.Gen.ReferenceIdeal
import proofs.«148401_j13073880449416_2_alg».proof.Proof.Gen.Pre_finite_inputs
import proofs.«148401_j13073880449416_2_alg».proof.Proof.KernelRun
import proofs.«148401_j13073880449416_2_alg».proof.Proof.KernelHost
import proofs.«148401_j13073880449416_2_alg».proof.Proof.RefRun
import proofs.«148401_j13073880449416_2_alg».proof.Proof.RefValue
import proofs.«148401_j13073880449416_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- Both programs end with their result array at ONE function of the arguments, which agree. -/
theorem algebraic : Cert.algebraic_KernelIdeal_ReferenceIdeal := by
  intro m ρ m' ρ' _ hagree
  refine ⟨fun c => Cert.KernelIdeal.HostValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.HostValue.exit1_result m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.RunP.run (F := Ideal) m' ρ')
    obtain ⟨e0, e1, e2, e3, e4, e5, e6, e7, e8⟩ := hagree c
    rw [Cert.ReferenceIdeal.RefValue.res_eq, e0, e1, e2, e3, e4, e5, e6, e7, e8]
    exact (Cert.Bridge.result_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
